-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x160x160x160 : Shape := ⟨5, ![8, 1, 160, 160, 160]⟩
abbrev S_ : Shape := ⟨0, ![]⟩

class Facts : Prop where
  bcast_S_S8x1x160x160x160 : S_.BroadcastsInDim S8x1x160x160x160 (![] : Fin 0 → Fin S8x1x160x160x160.rank)
  reducesTo_S8x1x160x160x160_S_d0_1_2_3_4 : S8x1x160x160x160.ReducesTo [0, 1, 2, 3, 4] S_
  h_S_ : 0 < S_.numel

variable [Facts]

def fn {F : FTy → Type} [FloatOps F] (main_arg0 : FVec F S8x1x160x160x160 .f32) (main_arg1 : FVec F S8x1x160x160x160 .f32) : IVec S_ 1 :=
  let main_v0 : FVec F S8x1x160x160x160 .f32 := Host.absf main_arg0
  let main_cst : FVec F S_ .f32 := constant S_ .f32 0x7F800000#32
  let main_v1 : FVec F S8x1x160x160x160 .f32 := broadcastInDim S8x1x160x160x160 ![] bcast_S_S8x1x160x160x160 main_cst
  let main_v2 : IVec S8x1x160x160x160 1 := cmpf .olt main_v0 main_v1
  let main_c : IVec S_ 1 := constantI S_ 1 1#1
  let main_v3 : IVec S_ 1 := (fun x v => Host.reduce IntOp.andi x v reducesTo_S8x1x160x160x160_S_d0_1_2_3_4 h_S_) main_v2 main_c
  let main_v4 : FVec F S8x1x160x160x160 .f32 := Host.absf main_arg1
  let main_cst_0 : FVec F S_ .f32 := constant S_ .f32 0x7F800000#32
  let main_v5 : FVec F S8x1x160x160x160 .f32 := broadcastInDim S8x1x160x160x160 ![] bcast_S_S8x1x160x160x160 main_cst_0
  let main_v6 : IVec S8x1x160x160x160 1 := cmpf .olt main_v4 main_v5
  let main_c_1 : IVec S_ 1 := constantI S_ 1 1#1
  let main_v7 : IVec S_ 1 := (fun x v => Host.reduce IntOp.andi x v reducesTo_S8x1x160x160x160_S_d0_1_2_3_4 h_S_) main_v6 main_c_1
  let main_v8 : IVec S_ 1 := andi main_v3 main_v7
  main_v8
-- ==== Kernel.lean ====
abbrev S8x1x160x160x160 : Shape := ⟨5, ![8, 1, 160, 160, 160]⟩
abbrev S8x4096000 : Shape := ⟨2, ![8, 4096000]⟩
abbrev S2x8x3 : Shape := ⟨3, ![2, 8, 3]⟩
abbrev S8x128000 : Shape := ⟨2, ![8, 128000]⟩
abbrev S1x8x3 : Shape := ⟨3, ![1, 8, 3]⟩
abbrev S8x3 : Shape := ⟨2, ![8, 3]⟩
abbrev S8 : Shape := ⟨1, ![8]⟩
abbrev S8x1 : Shape := ⟨2, ![8, 1]⟩
abbrev S_ : Shape := ⟨0, ![]⟩

abbrev nBuf : Space → Nat
  | .hbm => 33
  | .vmem => 7
  | .smem => 0
  | _ => 0

abbrev bufTy : (tb : Table) → Fin (tcTables nBuf tb) → BufTy
  | .hbm, ⟨0, _⟩ => ⟨S8x1x160x160x160, .f32⟩
  | .hbm, ⟨1, _⟩ => ⟨S8x1x160x160x160, .f32⟩
  | .hbm, ⟨2, _⟩ => ⟨S8x4096000, .f32⟩
  | .hbm, ⟨3, _⟩ => ⟨S8x4096000, .f32⟩
  | .hbm, ⟨4, _⟩ => ⟨S2x8x3, .f32⟩
  | .hbm, ⟨5, _⟩ => ⟨S_, .f32⟩
  | .hbm, ⟨6, _⟩ => ⟨S8x3, .f32⟩
  | .hbm, ⟨7, _⟩ => ⟨S8x1, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8x1, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8x1, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .i1⟩
  | .hbm, ⟨25, _⟩ => ⟨S8, .f32⟩
  | .hbm, ⟨26, _⟩ => ⟨S8, .i1⟩
  | .hbm, ⟨27, _⟩ => ⟨S8, .i1⟩
  | .hbm, ⟨28, _⟩ => ⟨S8, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S8x128000, .f32⟩
  | .local _ .vmem, ⟨1, _⟩ => ⟨S8x128000, .f32⟩
  | .local _ .vmem, ⟨2, _⟩ => ⟨S8x128000, .f32⟩
  | .local _ .vmem, ⟨3, _⟩ => ⟨S8x128000, .f32⟩
  | .local _ .vmem, ⟨4, _⟩ => ⟨S1x8x3, .f32⟩
  | .local _ .vmem, ⟨5, _⟩ => ⟨S1x8x3, .f32⟩
  | .local _ .vmem, ⟨6, _⟩ => ⟨S8x3, .f32⟩
  | _, _ => ⟨S8x1x160x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_14 : BitVec 32 := 0#32
  let v33 : BitVec 1 := Scalar.cmpi .ne v32 c0_i32_14
  v33

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x1x160x160x160_S8x4096000 : S8x1x160x160x160.ShapeCasts S8x4096000
  inb_S8x3_S8x3_0_0 : ∀ a, (![0, 0] : Fin 2 → Nat) a + S8x3.size a ≤ S8x3.size a
  h_S8x3 : 0 < S8x3.numel
  shapeCasts_S8x3_S8x3 : S8x3.ShapeCasts S8x3
  inb_S8x128000_S8x128000_0_0 : ∀ a, (![0, 0] : Fin 2 → Nat) a + S8x128000.size a ≤ S8x128000.size a
  h_S8x128000 : 0 < S8x128000.numel
  shapeCasts_S8x128000_S8x128000 : S8x128000.ShapeCasts S8x128000
  reduces_S8x128000_S8 : S8x128000.Reduces [1] S8
  shapeCasts_S8_S8x1 : S8.ShapeCasts S8x1
  concatenates_S8x1_S8x1_S8x1_S8x3_d1 : Shape.Concatenates [S8x1, S8x1, S8x1] S8x3 1
  inb_S1x8x3_S1x8x3_0_0_0 : ∀ a, (![0, 0, 0] : Fin 3 → Nat) a + S1x8x3.size a ≤ S1x8x3.size a
  h_S1x8x3 : 0 < S1x8x3.numel
  shapeCasts_S1x8x3_S8x3 : S1x8x3.ShapeCasts S8x3
  shapeCasts_S8x3_S1x8x3 : S8x3.ShapeCasts S1x8x3
  reducesTo_S2x8x3_S8x3_d0 : S2x8x3.ReducesTo [0] S8x3
  h_S_ : 0 < S_.numel
  slices_S8x3_S8x1_0_0 : S8x3.Slices ![0, 0] S8x1
  shapeCasts_S8x1_S8 : S8x1.ShapeCasts S8
  bcast_S_S8 : S_.BroadcastsInDim S8 (![] : Fin 0 → Fin S8.rank)
  slices_S8x3_S8x1_0_1 : S8x3.Slices ![0, 1] S8x1
  slices_S8x3_S8x1_0_2 : S8x3.Slices ![0, 2] S8x1
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128000.size a ≤ S8x4096000.size a
  hwx0_0 : ∀ i : grid0.Coords, EltTy.bits .f32 = 32 ∨ (Rect.block (s := S8x4096000) S8x128000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128000.size a ≤ S8x4096000.size a
  hwx0_1 : ∀ i : grid0.Coords, EltTy.bits .f32 = 32 ∨ (Rect.block (s := S8x4096000) S8x128000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x3.size a ≤ S2x8x3.size a
  hwx0_2 : ∀ i : grid0.Coords, EltTy.bits .f32 = 32 ∨ (Rect.block (s := S2x8x3) S1x8x3.size (cc0_transform_2 i) (hinb0_2 i)).WholeWords (EltTy.packing .f32)

variable [Facts₀]

abbrev win0_0 : Pipeline.Window sig grid0 :=
  Pipeline.Window.ofSpec (Memref.whole main_v0) S8x128000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x1x160x160x160 : Shape := ⟨5, ![8, 1, 160, 160, 160]⟩
abbrev S8x4096000 : Shape := ⟨2, ![8, 4096000]⟩
abbrev S_ : Shape := ⟨0, ![]⟩
abbrev S8 : Shape := ⟨1, ![8]⟩

abbrev nBuf : Space → Nat
  | .hbm => 47
  | .vmem => 0
  | .smem => 0
  | _ => 0

abbrev bufTy : (tb : Table) → Fin (tcTables nBuf tb) → BufTy
  | .hbm, ⟨0, _⟩ => ⟨S8x1x160x160x160, .f32⟩
  | .hbm, ⟨1, _⟩ => ⟨S8x1x160x160x160, .f32⟩
  | .hbm, ⟨2, _⟩ => ⟨S8x4096000, .f32⟩
  | .hbm, ⟨3, _⟩ => ⟨S8x4096000, .f32⟩
  | .hbm, ⟨4, _⟩ => ⟨S8x4096000, .f32⟩
  | .hbm, ⟨5, _⟩ => ⟨S8x4096000, .f32⟩
  | .hbm, ⟨6, _⟩ => ⟨S8x4096000, .f32⟩
  | .hbm, ⟨7, _⟩ => ⟨S_, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8x4096000, .f32⟩
  | .hbm, ⟨19, _⟩ => ⟨S8x4096000, .i1⟩
  | .hbm, ⟨20, _⟩ => ⟨S_, .f32⟩
  | .hbm, ⟨21, _⟩ => ⟨S8x4096000, .f32⟩
  | .hbm, ⟨22, _⟩ => ⟨S8x4096000, .f32⟩
  | .hbm, ⟨23, _⟩ => ⟨S8x4096000, .f32⟩
  | .hbm, ⟨24, _⟩ => ⟨S_, .f32⟩
  | .hbm, ⟨25, _⟩ => ⟨S8x4096000, .f32⟩
  | .hbm, ⟨26, _⟩ => ⟨S8x4096000, .f32⟩
  | .hbm, ⟨27, _⟩ => ⟨S_, .f32⟩
  | .hbm, ⟨28, _⟩ => ⟨S8x4096000, .f32⟩
  | .hbm, ⟨29, _⟩ => ⟨S8x4096000, .f32⟩
  | .hbm, ⟨30, _⟩ => ⟨S8x4096000, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .i1⟩
  | .hbm, ⟨39, _⟩ => ⟨S8, .f32⟩
  | .hbm, ⟨40, _⟩ => ⟨S8, .i1⟩
  | .hbm, ⟨41, _⟩ => ⟨S8, .i1⟩
  | .hbm, ⟨42, _⟩ => ⟨S8, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8x1x160x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_cst_11 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  shapeCasts_S8x1x160x160x160_S8x4096000 : S8x1x160x160x160.ShapeCasts S8x4096000
  reducesTo_S8x4096000_S8_d1 : S8x4096000.ReducesTo [1] S8
  h_S_ : 0 < S_.numel
  bcast_S_S8 : S_.BroadcastsInDim S8 (![] : Fin 0 → Fin S8.rank)
  bcast_S_S8x4096000 : S_.BroadcastsInDim S8x4096000 (![] : Fin 0 → Fin S8x4096000.rank)
  reducesTo_S8_S_d0 : S8.ReducesTo [0] S_

variable [Facts₀]

class Facts : Prop extends Facts₀ where

variable [Facts]
-- ==== Proof.Pieces.lean ====
/-
  What one step of the accumulation leaves behind, as values.

  The body keeps an 8 × 3 table of running sums in a scratch buffer.  At every grid point it adds to
  the table the three row sums of the current 8 × 128000 chunk (`k0_pay2`: the table it read, plus the
  chunk's sums); at the first step of a sweep it first overwrites the table with zeros (`k0_pay1`), so
  that step leaves `k0_pay2` of the zero table; at the last step of a sweep it also copies the updated
  table, as a 1 × 8 × 3 block, to the output (`k0_pay3`).  These are the statements below, for any
  float instance: each is the one covering store of the step read back, with the step's loads reading
  whole buffers (and, where a load follows a store to the same buffer, reading what was stored).
-/
import proofs.«124057_j38577396253398_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- A middle step (neither first nor last of its sweep) leaves the table at its old contents `xs0`
    plus the chunk's sums. -/
theorem scratch_mid (c : Dev nD) (i : grid0.Coords) (arg2 : Memref sig .tc .vmem S8x128000 .f32) (harg2 : arg2.IsWhole) (arg3 : Memref sig .tc .vmem S8x128000 .f32) (harg3 : arg3.IsWhole) (arg4 : Memref sig .tc .vmem S1x8x3 .f32) (harg4 : arg4.IsWhole) (arg5 : Memref sig .tc .vmem S8x3 .f32) (harg5 : arg5.IsWhole) (hc0 : ¬cond0_0 i) (hc1 : ¬cond0_1 i)
    (x0 : Vec F S8x128000 .f32) (x1 : Vec F S8x128000 .f32) (xs0 : Vec F S8x3 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero zeros2]
  simp only [View.readAt_eq_ld, harg2.read_unread, harg3.read_unread, harg5.read_unread,
    View.ld_unit_zero (S := S8x128000) zeros2, View.ld_unit_zero (S := S8x3) zeros2]

/-- The last step of a sweep leaves the table the same way, -/
theorem scratch_last (c : Dev nD) (i : grid0.Coords) (arg2 : Memref sig .tc .vmem S8x128000 .f32) (harg2 : arg2.IsWhole) (arg3 : Memref sig .tc .vmem S8x128000 .f32) (harg3 : arg3.IsWhole) (arg4 : Memref sig .tc .vmem S1x8x3 .f32) (harg4 : arg4.IsWhole) (arg5 : Memref sig .tc .vmem S8x3 .f32) (harg5 : arg5.IsWhole) (hc0 : ¬cond0_0 i) (hc1 : cond0_1 i)
    (x0 : Vec F S8x128000 .f32) (x1 : Vec F S8x128000 .f32) (xs0 : Vec F S8x3 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero zeros2]
  simp only [View.readAt_eq_ld, harg2.read_unread, harg3.read_unread, harg5.read_unread,
    View.ld_unit_zero (S := S8x128000) zeros2, View.ld_unit_zero (S := S8x3) zeros2]

/-- and leaves in the output block the updated table, re-laid as 1 × 8 × 3: the copy reads the table
    back after the store that updated it. -/
theorem out_last (c : Dev nD) (i : grid0.Coords) (arg2 : Memref sig .tc .vmem S8x128000 .f32) (harg2 : arg2.IsWhole) (arg3 : Memref sig .tc .vmem S8x128000 .f32) (harg3 : arg3.IsWhole) (arg4 : Memref sig .tc .vmem S1x8x3 .f32) (harg4 : arg4.IsWhole) (arg5 : Memref sig .tc .vmem S8x3 .f32) (harg5 : arg5.IsWhole) (hc0 : ¬cond0_0 i) (hc1 : cond0_1 i)
    (x0 : Vec F S8x128000 .f32) (x1 : Vec F S8x128000 .f32) (xs0 : Vec F S8x3 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero zeros3, View.readCov_unit_zero (S := S8x3) _ zeros2]
  simp only [View.readAt_eq_ld, harg2.read_unread, harg3.read_unread, harg5.read_unread,
    View.ld_unit_zero (S := S8x128000) zeros2, View.ld_unit_zero (S := S8x3) zeros2]

/-- The first step of a sweep stores the zero table, reads it back, and leaves the zero table plus the
    chunk's sums. -/
theorem scratch_first (c : Dev nD) (i : grid0.Coords) (arg2 : Memref sig .tc .vmem S8x128000 .f32) (harg2 : arg2.IsWhole) (arg3 : Memref sig .tc .vmem S8x128000 .f32) (harg3 : arg3.IsWhole) (arg4 : Memref sig .tc .vmem S1x8x3 .f32) (harg4 : arg4.IsWhole) (arg5 : Memref sig .tc .vmem S8x3 .f32) (harg5 : arg5.IsWhole) (hc0 : cond0_0 i) (hc1 : ¬cond0_1 i)
    (x0 : Vec F S8x128000 .f32) (x1 : Vec F S8x128000 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x3) zeros2, View.readCov_unit_zero (S := S8x3) _ zeros2]
  simp only [View.readAt_eq_ld, harg2.read_unread, harg3.read_unread,
    View.ld_unit_zero (S := S8x128000) zeros2]

end Cert.KernelIdeal.Pieces

end
-- ==== Proof.TiledSum.lean ====
/-
  A sum over the first `A * B` naturals, regrouped as `A` consecutive runs of length `B`:
  position `x` of the long range is position `l` of run `s` exactly when `x = s * B + l`.
  Addition in a commutative monoid is all that is used, so the law holds on the extended reals
  with no finiteness assumption.
-/
import Mathlib.Algebra.BigOperators.Intervals
import Mathlib.Algebra.BigOperators.Fin

namespace Cert.TiledSum

open Finset

variable {M : Type*} [AddCommMonoid M]

/-- `∑_{x < A·B} f x = ∑_{s < A} ∑_{l < B} f (s·B + l)`: by induction on the number of runs, the last run
    split off the end of the range. -/
theorem sum_range_mul (A B : ℕ) (f : ℕ → M) :
    ∑ x ∈ range (A * B), f x = ∑ s ∈ range A, ∑ l ∈ range B, f (s * B + l) := by
  induction A with
  | zero => rw [Nat.zero_mul, Finset.sum_range_zero, Finset.sum_range_zero]
  | succ A ih => rw [Nat.succ_mul, Finset.sum_range_add, ih, Finset.sum_range_succ]

/-- A sum over a `Fin n` as the sum over `range n` of a function of the naturals that agrees with it
    below `n`. -/
theorem sum_fin_eq_range (n : ℕ) (g : Fin n → M) (f : ℕ → M) (h : ∀ x : Fin n, g x = f x.val) :
    ∑ x : Fin n, g x = ∑ x ∈ range n, f x := by
  rw [← Fin.sum_univ_eq_sum_range f n]
  exact Finset.sum_congr rfl fun x _ => h x

end Cert.TiledSum
-- ==== Proof.Spec.lean ====
/-
  The function both programs compute, over the extended reals.

  The two arguments are read as `8 × 4096000` arrays `p` (predictions) and `q` (targets).  With
  `e = p − q` at a position, three quantities are summed along each row `b`:

    k = 0   e · e                                         (squared error)
    k = 1   |e| = max e (−e)                              (absolute error)
    k = 2   ½ · (e · e)  if |e| ≤ 5,  else 5 · (|e| − 5/2)  (Huber term, δ = 5)

  `colSum k p q` is the vector of the eight row sums (from the initial value 0), and `tail` is what
  is done with the three vectors: divide each by 4096000, keep the mean squared error of a row when
  it is at most 1 or below the square of the mean absolute error, the mean Huber term otherwise, and
  average the eight kept values.

  The row sum is written over the naturals (`rd` reads an array at a column given as a natural,
  0 past the end) so that it can be regrouped into the 32 chunks of 128000 columns without carrying
  bound proofs: `rowSum_eq_chunks`.
-/
import Idealize.ShloMosaic.PureOps.Ideal
import Idealize.ShloMosaic.PureOps.Ideal.Laws
import Idealize.ShloMosaic.Lib.ValueIdx
import proofs.«124057_j38577396253398_2_alg».proof.Proof.TiledSum

noncomputable section

namespace Cert.Spec

open Idealize.ShloMosaic Idealize.ShloMosaic.ValueIdx Finset

/-- The squared error of one position. -/
def sqT (x y : EReal) : EReal := (x - y) * (x - y)

/-- The absolute error of one position. -/
def abT (x y : EReal) : EReal := max (x - y) (-(x - y))

/-- The Huber term of one position (δ = 5): half the squared error where the absolute error is at most
    5, and `5 · (|e| − 5/2)` beyond. -/
def hubT (x y : EReal) : EReal :=
  Scalar.select (Ideal.cmp .ole (abT x y) (Ideal.ofBits .f32 0x40A00000#32))
    (Ideal.ofBits .f32 0x3F000000#32 * sqT x y)
    (Ideal.ofBits .f32 0x40A00000#32 * (abT x y - Ideal.ofBits .f32 0x40200000#32))

/-- The three summed quantities, by column of the 8 × 3 table of sums. -/
def term (k : Fin 3) (x y : EReal) : EReal :=
  match k with
  | ⟨0, _⟩ => sqT x y
  | ⟨1, _⟩ => abT x y
  | ⟨2, _⟩ => hubT x y

/-- Row `b` of an 8 × 4096000 array at column `x`, a natural: 0 past the end. -/
def rd (p : (⟨2, ![8, 4096000]⟩ : Shape).Idx → EReal) (b : Fin 8) (x : ℕ) : EReal :=
  if h : x < 4096000 then p (ix2 b ⟨x, h⟩) else 0

theorem rd_lt (p : (⟨2, ![8, 4096000]⟩ : Shape).Idx → EReal) (b : Fin 8) (x : ℕ) (h : x < 4096000) :
    rd p b x = p (ix2 b ⟨x, h⟩) := dif_pos h

/-- Quantity `k` summed over chunk `s` of row `b`: columns `128000·s … 128000·s + 127999`. -/
def chunk (k : Fin 3) (p q : (⟨2, ![8, 4096000]⟩ : Shape).Idx → EReal) (b : Fin 8) (s : ℕ) : EReal :=
  ∑ l ∈ range 128000, term k (rd p b (s * 128000 + l)) (rd q b (s * 128000 + l))

/-- Quantity `k` summed over the whole of row `b`. -/
def rowSum (k : Fin 3) (p q : (⟨2, ![8, 4096000]⟩ : Shape).Idx → EReal) (b : Fin 8) : EReal :=
  ∑ x ∈ range 4096000, term k (rd p b x) (rd q b x)

/-- A row is its 32 chunks laid end to end (4096000 = 32 · 128000). -/
theorem rowSum_eq_chunks (k : Fin 3) (p q : (⟨2, ![8, 4096000]⟩ : Shape).Idx → EReal) (b : Fin 8) :
    rowSum k p q b = ∑ s ∈ range 32, chunk k p q b s := by
  unfold rowSum chunk
  rw [show range 4096000 = range (32 * 128000) from rfl]
  exact Cert.TiledSum.sum_range_mul 32 128000 _

/-- The eight row sums of quantity `k`, each from the initial value 0 of the sum. -/
def colSum (k : Fin 3) (p q : (⟨2, ![8, 4096000]⟩ : Shape).Idx → EReal) : (⟨1, ![8]⟩ : Shape).Idx → EReal :=
  fun j => Ideal.ofBits .f32 0x00000000#32 + rowSum k p q (j 0)

/-- What is done with the three vectors of sums `s0` (squared), `s1` (absolute), `s2` (Huber): the
    per-row means, the choice between the mean squared error and the mean Huber term, and the mean
    of the eight chosen values. -/
def tail (hb : (⟨0, ![]⟩ : Shape).BroadcastsInDim ⟨1, ![8]⟩ (![] : Fin 0 → Fin 1))
    (hr : (⟨1, ![8]⟩ : Shape).ReducesTo [0] ⟨0, ![]⟩) (h0 : 0 < (⟨0, ![]⟩ : Shape).numel)
    (s0 s1 s2 : FVec Ideal ⟨1, ![8]⟩ .f32) : FVec Ideal ⟨0, ![]⟩ .f32 :=
  let n : FVec Ideal ⟨1, ![8]⟩ .f32 := broadcastInDim ⟨1, ![8]⟩ ![] hb (constant (F := Ideal) ⟨0, ![]⟩ .f32 0x4A7A0000#32)
  let L2 : FVec Ideal ⟨1, ![8]⟩ .f32 := Host.divf (F := Ideal) s0 n
  let L1 : FVec Ideal ⟨1, ![8]⟩ .f32 := Host.divf (F := Ideal) s1 n
  let hub : FVec Ideal ⟨1, ![8]⟩ .f32 := Host.divf (F := Ideal) s2 n
  let one : FVec Ideal ⟨1, ![8]⟩ .f32 := broadcastInDim ⟨1, ![8]⟩ ![] hb (constant (F := Ideal) ⟨0, ![]⟩ .f32 0x3F800000#32)
  let use : IVec ⟨1, ![8]⟩ 1 := ori (cmpf .ole L2 one) (cmpf .olt L2 (mulf L1 L1))
  Host.divf (F := Ideal)
    (Host.reduceAdd (F := Ideal) (select use L2 hub) (constant (F := Ideal) ⟨0, ![]⟩ .f32 0x00000000#32) hr h0)
    (constant (F := Ideal) ⟨0, ![]⟩ .f32 0x41000000#32)

end Cert.Spec

end
-- ==== Proof.LibColumn.lean ====
/-
  A vector viewed as a one-column matrix, and back, read at an index given by coordinates.

  A shape cast keeps the row-major position of every entry.  Entry `i` of a vector of `a` entries and
  entry `(i, 0)` of an `a × 1` matrix are both at position `i`, so the cast `[a] → [a, 1]` reads the
  vector at `i`, and the cast `[a, 1] → [a]` reads the column at `(i, 0)`.
-/
import Idealize.ShloMosaic.Lib.Pipeline.Value
import Idealize.ShloMosaic.Lib.ValueIdx

namespace Cert.LibColumn

open Idealize.ShloMosaic Idealize.ShloMosaic.ValueIdx

variable {α : Type}

/-- A vector `[a]` cast to a column `[a, 1]` reads, at `(i, u)`, the vector at `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumn
-- ==== Proof.PayloadIdx.lean ====
/-
  The accumulation step read at an entry of the 8 × 3 table, over the extended reals.

  Entry `(b, k)` of the updated table is the old entry plus the sum, over the 128000 columns `l` of the
  current chunk, of quantity `k` (squared error, absolute error, Huber term) at position `(b, l)` of the
  two input blocks.  The body computes the three row sums as lane reductions of 8 × 128000 vectors,
  turns each into an 8 × 1 column, lays the three columns side by side and adds the result to the
  table it read: column `k` of the concatenation is the `k`-th reduction, and a lane reduction at row
  `b` is the sum over the lanes of that row.
-/
import proofs.«124057_j38577396253398_2_alg».proof.Proof.Gen.KernelIdeal.Skeleton
import proofs.«124057_j38577396253398_2_alg».proof.Proof.Spec
import proofs.«124057_j38577396253398_2_alg».proof.Proof.LibColumn
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- A lane reduction of an 8 × 128000 vector, at row `b`: the sum of the row's 128000 entries. -/
theorem laneSum_apply (v : FVec Ideal S8x128000 .f32) (b : Fin 8) :
    multiReduction (F := Ideal) .add [1] S8 v 0x00000000#32 reduces_S8x128000_S8 (.inl rfl) rfl (ix1 b)
      = ∑ l : Fin 128000, v (ix2 b l) :=
  (Ideal.multiReduction_add_single v _ reduces_S8x128000_S8 (.inl rfl) rfl (ix1 b)).trans
    (Finset.sum_congr rfl fun l _ => congrArg v (funext fun a => match a with | ⟨0, _⟩ => rfl | ⟨1, _⟩ => rfl))

/-- The same reduction as an 8 × 1 column, at `(b, 0)`. -/
theorem column_apply (v : FVec Ideal S8x128000 .f32) (b : Fin 8) :
    shapeCast S8x1 (multiReduction (F := Ideal) .add [1] S8 v 0x00000000#32 reduces_S8x128000_S8 (.inl rfl) rfl)
        shapeCasts_S8_S8x1 (ix2 b (0 : Fin 1))
      = ∑ l : Fin 128000, v (ix2 b l) :=
  (Cert.LibColumn.shapeCast_a_a1_apply _ shapeCasts_S8_S8x1 b 0).trans (laneSum_apply v b)

/-- Three 8 × 1 columns side by side, at `(b, k)`: column `k` at `(b, 0)`. -/
theorem columns_apply (c0 c1 c2 : FVec Ideal S8x1 .f32) (b : Fin 8) (k : Fin 3) :
    concatenate S8x3 1 [⟨S8x1, c0⟩, ⟨S8x1, c1⟩, ⟨S8x1, c2⟩] concatenates_S8x1_S8x1_S8x1_S8x3_d1 (ix2 b k)
      = (match k with | ⟨0, _⟩ => c0 | ⟨1, _⟩ => c1 | ⟨2, _⟩ => c2) (ix2 b (0 : Fin 1)) := by
  have hi : ∀ (k : Fin 3) (b' : Fin S8x1.rank), b'.cast (rfl : S8x1.rank = S8x3.rank) ≠ (1 : Fin S8x3.rank) →
      ((ix2 b (0 : Fin 1) : S8x1.Idx) b').val = ((ix2 b k : S8x3.Idx) (b'.cast rfl)).val := fun k b' hb =>
    match b', hb with
    | ⟨0, _⟩, _ => rfl
    | ⟨1, _⟩, h => absurd rfl h
  match k with
  | ⟨0, _⟩ =>
    exact concatenate_apply_piece (1 : Fin S8x3.rank) [⟨S8x1, c0⟩, ⟨S8x1, c1⟩, ⟨S8x1, c2⟩] concatenates_S8x1_S8x1_S8x1_S8x3_d1 _ 0 (show 0 < 3 by omega) S8x1 c0 rfl rfl 0 rfl
      (ix2 b (0 : Fin 1)) (hi 0) rfl
  | ⟨1, _⟩ =>
    exact concatenate_apply_piece (1 : Fin S8x3.rank) [⟨S8x1, c0⟩, ⟨S8x1, c1⟩, ⟨S8x1, c2⟩] concatenates_S8x1_S8x1_S8x1_S8x3_d1 _ 1 (show 1 < 3 by omega) S8x1 c1 rfl rfl 1 rfl
      (ix2 b (0 : Fin 1)) (hi 1) rfl
  | ⟨2, _⟩ =>
    exact concatenate_apply_piece (1 : Fin S8x3.rank) [⟨S8x1, c0⟩, ⟨S8x1, c1⟩, ⟨S8x1, c2⟩] concatenates_S8x1_S8x1_S8x1_S8x3_d1 _ 2 (show 2 < 3 by omega) S8x1 c2 rfl rfl 2 rfl
      (ix2 b (0 : Fin 1)) (hi 2) rfl

/-- THE STEP AT AN ENTRY: the updated table at `(b, k)` is the table read at `(b, k)` plus the chunk's sum of
    quantity `k` along row `b`. -/
theorem step_apply (x0 x1 : Vec Ideal S8x128000 .f32) (acc : Vec Ideal S8x3 .f32) (b : Fin 8) (k : Fin 3) :
    k0_pay2 (F := Ideal) x0 x1 acc (ix2 b k)
      = acc (ix2 b k) + ∑ l : Fin 128000, Cert.Spec.term k (x0 (ix2 b l)) (x1 (ix2 b l)) := by
  unfold k0_pay2
  simp only [shapeCast_self]
  refine congrArg (acc (ix2 b k) + ·) ?_
  refine (columns_apply _ _ _ b k).trans ?_
  match k with
  | ⟨0, _⟩ => exact (column_apply _ b).trans (Finset.sum_congr rfl fun l _ => by simp only [shapeCast_self]; rfl)
  | ⟨1, _⟩ => exact (column_apply _ b).trans (Finset.sum_congr rfl fun l _ => by simp only [shapeCast_self]; rfl)
  | ⟨2, _⟩ => exact (column_apply _ b).trans (Finset.sum_congr rfl fun l _ => by simp only [shapeCast_self]; rfl)

/-- The zero table at an entry. -/
theorem zero_apply (j : S8x3.Idx) : k0_pay1 (F := Ideal) j = 0 := by
  unfold k0_pay1
  simp only [shapeCast_self]
  exact Ideal.ofBits_zero_f32

/-- The table re-laid as a 1 × 8 × 3 block, at `(0, b, k)`: the table at `(b, k)`. -/
theorem relaid_apply (v : Vec Ideal S8x3 .f32) (u : Fin 1) (b : Fin 8) (k : Fin 3) :
    k0_pay3 (F := Ideal) v (ix3 u b k) = v (ix2 b k) := by
  unfold k0_pay3
  exact shapeCast_apply v shapeCasts_S8x3_S1x8x3 _ _ (by
    have hu : u.val = 0 := by omega
    rw [Shape.rowMajor_val_two, Shape.rowMajor_val_three]
    show b.val * 3 + k.val = (u.val * 8 + b.val) * 3 + k.val
    rw [hu]; omega)

end Cert.KernelIdeal.Payload

end
-- ==== Proof.Accum.lean ====
/-
  From the steps to the output array.

  `P` and `Q` are the two arguments as the region finds them: 8 × 4096000 arrays.  Grid point `t`
  (0 … 31; sweep `t / 16`, step `t % 16`) is handed columns `128000·t … 128000·t + 127999` of both, so the
  step at point `t` adds to entry `(b, k)` of the table the chunk sum `chunk k P Q b t`.  The table is reset at
  the first step of each sweep, so after point `n` it holds the chunk sums of the points
  `n − n % 16 … n` of the current sweep (`table_sum`, by induction on the point).  The last step of sweep `p`
  copies the table to block `p` of the 2 × 8 × 3 output, which therefore ends at
  `outArr (p, b, k) = ∑_{16p ≤ s < 16p + 16} chunk k P Q b s`: the two blocks tile the output.
-/
import proofs.«124057_j38577396253398_2_alg».proof.Proof.Gen.KernelIdeal.Frame
import proofs.«124057_j38577396253398_2_alg».proof.Proof.Pieces
import proofs.«124057_j38577396253398_2_alg».proof.Proof.PayloadIdx
import proofs.«124057_j38577396253398_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.Spec Finset

variable (m : (ℓ : Loc nD τ sig) → Buf (Elt Ideal) ℓ)

/-- The first argument, re-laid as 8 × 4096000, as the region finds it. -/
def P (c : Dev nD) : (⟨2, ![8, 4096000]⟩ : Shape).Idx → EReal := V m c main_v0
/-- The second argument, likewise. -/
def Q (c : Dev nD) : (⟨2, ![8, 4096000]⟩ : Shape).Idx → EReal := V m c main_v1

/-- The input windows' block index at point `t` is `(0, t)`, decided over the 32 grid points. -/
theorem in_index : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, win0_0.index t (0 : Fin 2) = 0 ∧ win0_0.index t (1 : Fin 2) = t.val
    ∧ win0_1.index t (0 : Fin 2) = 0 ∧ win0_1.index t (1 : Fin 2) = t.val)

/-- The output window's block index at point `t` is `(t / 16, 0, 0)`. -/
theorem out_index : ∀ t : Fin cfg0.N, win0_2.index t (0 : Fin 3) = t.val / 16 ∧ win0_2.index t (1 : Fin 3) = 0
    ∧ win0_2.index t (2 : Fin 3) = 0 :=
  (by decide +kernel : ∀ t : Fin grid0.N, win0_2.index t (0 : Fin 3) = t.val / 16 ∧ win0_2.index t (1 : Fin 3) = 0
    ∧ win0_2.index t (2 : Fin 3) = 0)

/-- Entry `(b, l)` of the first input block at point `t` is `P` at row `b`, column `128000·t + l`. -/
theorem block0_apply (c : Dev nD) (t : Fin cfg0.N) (b : Fin 8) (l : Fin 128000) :
    iblk m c 0 t (ix2 b l) = rd (P m c) b (t.val * 128000 + l.val) := by
  have hN : t.val < 32 := lt_of_lt_of_eq t.isLt (show cfg0.N = 32 from N_0)
  have hl : l.val < 128000 := l.isLt
  have hx : t.val * 128000 + l.val < 4096000 := by omega
  rw [rd_lt _ _ _ hx]
  unfold iblk P
  rw [View.read_apply]
  show V m c main_v0 _ = V m c main_v0 _
  refine congrArg (V m c main_v0) (funext fun a => Fin.ext ?_)
  match a with
  | ⟨0, _⟩ => show win0_0.index t (0 : Fin 2) * 8 + 1 * b.val = b.val; rw [(in_index t).1]; omega
  | ⟨1, _⟩ => show win0_0.index t (1 : Fin 2) * 128000 + 1 * l.val = t.val * 128000 + l.val; rw [(in_index t).2.1]; omega

/-- The same for the second input block and `Q`. -/
theorem block1_apply (c : Dev nD) (t : Fin cfg0.N) (b : Fin 8) (l : Fin 128000) :
    iblk m c 1 t (ix2 b l) = rd (Q m c) b (t.val * 128000 + l.val) := by
  have hN : t.val < 32 := lt_of_lt_of_eq t.isLt (show cfg0.N = 32 from N_0)
  have hl : l.val < 128000 := l.isLt
  have hx : t.val * 128000 + l.val < 4096000 := by omega
  rw [rd_lt _ _ _ hx]
  unfold iblk Q
  rw [View.read_apply]
  show V m c main_v1 _ = V m c main_v1 _
  refine congrArg (V m c main_v1) (funext fun a => Fin.ext ?_)
  match a with
  | ⟨0, _⟩ => show win0_1.index t (0 : Fin 2) * 8 + 1 * b.val = b.val; rw [(in_index t).2.2.1]; omega
  | ⟨1, _⟩ => show win0_1.index t (1 : Fin 2) * 128000 + 1 * l.val = t.val * 128000 + l.val; rw [(in_index t).2.2.2]; omega

/-- The step at point `t`, at entry `(b, k)`: the table read, plus chunk `t`'s sum of quantity `k` on row `b`. -/
theorem step_chunk (c : Dev nD) (t : Fin cfg0.N) (acc : Vec Ideal S8x3 .f32) (b : Fin 8) (k : Fin 3) :
    k0_pay2 (F := Ideal) (iblk m c 0 t) (iblk m c 1 t) acc (ix2 b k)
      = acc (ix2 b k) + chunk k (P m c) (Q m c) b t.val := by
  refine (Payload.step_apply (iblk m c 0 t) (iblk m c 1 t) acc b k).trans (congrArg (acc (ix2 b k) + ·) ?_)
  unfold chunk
  exact Cert.TiledSum.sum_fin_eq_range 128000 _ _ fun l => by rw [block0_apply m c t b l, block1_apply m c t b l]

/-- After the first step of a sweep the table is the step applied to the zero table; -/
theorem table_first (c : Dev nD) (t : Fin cfg0.N) (h0 : t.val % 16 = 0) :
    (outsAt0 m c t.val t.isLt).2 = k0_pay2 (iblk m c 0 t) (iblk m c 1 t) (k0_pay1 (F := Ideal)) :=
  have h1 : ¬t.val % 16 = 15 := by omega
  (congrArg Prod.snd (outsAt0_A m c t h0 h1)).trans
    (Pieces.scratch_first c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t))

/-- after any other step, the step applied to what the point before left. -/
theorem table_next (c : Dev nD) (t : Fin cfg0.N) (h0 : ¬t.val % 16 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 16 = 15
  · exact (congrArg Prod.snd (outsAt0_C m c t h0 h1)).trans
      (Pieces.scratch_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2)
  · exact (congrArg Prod.snd (outsAt0_B m c t h0 h1)).trans
      (Pieces.scratch_mid c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2)

/-- THE TABLE AFTER POINT `n`: the chunk sums of the current sweep's points up to `n`. -/
theorem table_sum (c : Dev nD) : ∀ (n : ℕ) (h : n < cfg0.N) (b : Fin 8) (k : Fin 3),
    (outsAt0 m c n h).2 (ix2 b k) = ∑ s ∈ Ico (n - n % 16) (n + 1), chunk k (P m c) (Q m c) b s := by
  intro n
  induction n with
  | zero =>
    intro h b k
    refine (congrFun (table_first m c ⟨0, h⟩ (Nat.zero_mod _)) (ix2 b k)).trans ?_
    refine (step_chunk m c ⟨0, h⟩ _ b k).trans ?_
    rw [Payload.zero_apply, zero_add]
    show chunk k (P m c) (Q m c) b 0 = ∑ s ∈ Ico 0 (0 + 1), chunk k (P m c) (Q m c) b s
    rw [Nat.Ico_succ_singleton, Finset.sum_singleton]
  | succ n ih =>
    intro h b k
    by_cases h0 : (n + 1) % 16 = 0
    · refine (congrFun (table_first m c ⟨n + 1, h⟩ h0) (ix2 b k)).trans ?_
      refine (step_chunk m c ⟨n + 1, h⟩ _ b k).trans ?_
      rw [Payload.zero_apply, zero_add]
      have e : n + 1 - (n + 1) % 16 = n + 1 := by omega
      rw [e, Nat.Ico_succ_singleton, Finset.sum_singleton]
    · refine (congrFun (table_next m c ⟨n + 1, h⟩ h0) (ix2 b k)).trans ?_
      refine (step_chunk m c ⟨n + 1, h⟩ _ b k).trans ?_
      have e : n + 1 - (n + 1) % 16 = n - n % 16 := by omega
      rw [e, Finset.sum_Ico_succ_top (by omega : n - n % 16 ≤ n + 1)]
      exact congrArg (· + chunk k (P m c) (Q m c) b (n + 1)) (ih (Nat.lt_of_succ_lt h) b k)

/-- WHAT THE LAST STEP OF A SWEEP LEAVES IN THE OUTPUT BLOCK: at `(0, b, k)`, the sweep's sixteen chunk sums. -/
theorem out_at_last (c : Dev nD) (t : Fin cfg0.N) (h15 : t.val % 16 = 15) (u : Fin 1) (b : Fin 8) (k : Fin 3) :
    (outsAt0 m c t.val t.isLt).1 (ix3 u b k) = ∑ s ∈ Ico (t.val - 15) (t.val + 1), chunk k (P m c) (Q m c) b s := by
  have h0 : ¬t.val % 16 = 0 := by omega
  have e1 : (outsAt0 m c t.val t.isLt).1
      = k0_pay3 (k0_pay2 (iblk m c 0 t) (iblk m c 1 t) (outsAt0 m c (t.val - 1) (Nat.lt_of_le_of_lt (Nat.sub_le _ _) t.isLt)).2) :=
    (congrArg Prod.fst (outsAt0_C m c t h0 h15)).trans
      (Pieces.out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h15) (iblk m c 0 t) (iblk m c 1 t)
        (outsAt0 m c (t.val - 1) (Nat.lt_of_le_of_lt (Nat.sub_le _ _) t.isLt)).2)
  refine (congrFun e1 (ix3 u b k)).trans ((Payload.relaid_apply _ u b k).trans ?_)
  refine (congrFun (table_next m c t h0) (ix2 b k)).symm.trans ?_
  rw [table_sum m c t.val t.isLt b k, h15]

/-- The output array after the run: block `p` holds sweep `p`'s sums. -/
def outArr (c : Dev nD) : (⟨3, ![2, 8, 3]⟩ : Shape).Idx → EReal := fun j =>
  ∑ s ∈ Ico (16 * (j 0).val) (16 * (j 0).val + 16), chunk (j 2) (P m c) (Q m c) (j 1) s

/-- What a point that writes the output block back writes is its block of `outArr`. -/
theorem flushed_eq (c : Dev nD) (t : Fin cfg0.N) (hf : (cfg0.win 2).flush t = true) :
    (dats m 0 c).flushed 2 t = ((cfg0.win 2).blk t).view.read (Elt Ideal) (outArr m c) := by
  have h15 : t.val % 16 = 15 := (flush0_2 t).mp hf
  have hN : t.val < 32 := lt_of_lt_of_eq t.isLt (show cfg0.N = 32 from N_0)
  show (cfg0.win 2).cut (grid0.coords t) ((dats m 0 c).after 2 t) = _
  rw [after0_2]
  funext y
  obtain ⟨u, b, k, rfl⟩ : ∃ (u : Fin 1) (b : Fin 8) (k : Fin 3), y = ix3 u b k := ⟨y 0, y 1, y 2, eq_ix3 y⟩
  show (outsAt0 m c t.val t.isLt).1 (ix3 u b k) = outArr m c (((cfg0.win 2).blk t).view.emb (ix3 u b k))
  rw [out_at_last m c t h15 u b k]
  unfold outArr
  have hu : u.val = 0 := by omega
  have e0 : ((((cfg0.win 2).blk t).view.emb (ix3 u b k)) 0).val = t.val / 16 := by
    show win0_2.index t (0 : Fin 3) * 1 + 1 * u.val = t.val / 16
    rw [(out_index t).1, hu]; omega
  have e1 : (((cfg0.win 2).blk t).view.emb (ix3 u b k)) 1 = b := Fin.ext (by
    show win0_2.index t (1 : Fin 3) * 8 + 1 * b.val = b.val
    rw [(out_index t).2.1]; omega)
  have e2 : (((cfg0.win 2).blk t).view.emb (ix3 u b k)) 2 = k := Fin.ext (by
    show win0_2.index t (2 : Fin 3) * 3 + 1 * k.val = k.val
    rw [(out_index t).2.2]; omega)
  rw [e0, e1, e2]
  have a : t.val - 15 = 16 * (t.val / 16) := by omega
  have a' : t.val + 1 = 16 * (t.val / 16) + 16 := by omega
  rw [a, a']

/-- The two sweeps' blocks cover the output. -/
theorem covered (c : Dev nD) (i : (⟨3, ![2, 8, 3]⟩ : Shape).Idx) :
    ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 3 := (i 2).isLt
  have hN : cfg0.N = 32 := N_0
  let t : Fin cfg0.N := ⟨16 * (i 0).val + 15, by rw [hN]; omega⟩
  have ht : t.val = 16 * (i 0).val + 15 := rfl
  refine ⟨t, (flush0_2 t).mpr (by rw [ht]; omega), ?_⟩
  show i ∈ ((View.whole main_v2).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [(out_index t).1, ht]; omega
  | ⟨1, _⟩ =>
    show win0_2.index t (1 : Fin 3) * 8 ≤ (i 1).val ∧ (i 1).val < win0_2.index t (1 : Fin 3) * 8 + 8
    rw [(out_index t).2.1]; omega
  | ⟨2, _⟩ =>
    show win0_2.index t (2 : Fin 3) * 3 ≤ (i 2).val ∧ (i 2).val < win0_2.index t (2 : Fin 3) * 3 + 3
    rw [(out_index t).2.2]; omega

/-- THE OUTPUT ARRAY AFTER THE RUN. -/
theorem final (c : Dev nD) : (dats m 0 c).arrAt 2 cfg0.N = outArr m c :=
  (dats m 0 c).arrAt_eq_of_cover 2 (outArr m c) (flushed_eq m c) (covered c)

end Cert.KernelIdeal.Accum

end
-- ==== Proof.KernelTail.lean ====
/-
  The kernel's result.

  After the region the program adds the output's two blocks (one per sweep) from 0, takes the three columns of the
  resulting 8 × 3 table as vectors, and applies the tail.  Column `k` at row `b` is therefore
  `0 + (∑_{0 ≤ s < 16} chunk k P Q b s + ∑_{16 ≤ s < 32} chunk k P Q b s)`, the sum of all 32 chunks of row `b`, which is the
  whole row's sum: `colSum k P Q`.  `P` and `Q` are the two arguments re-laid as 8 × 4096000 by the two host
  operations before the region.
-/
import proofs.«124057_j38577396253398_2_alg».proof.Proof.Accum
import proofs.«124057_j38577396253398_2_alg».proof.Proof.LibColumn
import Idealize.ShloMosaic.Lib.StableHlo.Run
import Idealize.ShloMosaic.Lib.Pipeline.FrameSuffix
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KValue

open Cert.KernelIdeal Cert.KernelIdeal.Gen Cert.Spec Finset

variable (m : (ℓ : Loc nD τ sig) → Buf (Elt Ideal) ℓ) (ρ : Dev nD → PrngReg)

/-- The first argument re-laid as 8 × 4096000. -/
abbrev p (c : Dev nD) : (⟨2, ![8, 4096000]⟩ : Shape).Idx → EReal :=
  shapeCast S8x4096000 (m ((c.tc : Thread nD τ).loc main_arg0)) shapeCasts_S8x1x160x160x160_S8x4096000
/-- The second argument re-laid as 8 × 4096000. -/
abbrev q (c : Dev nD) : (⟨2, ![8, 4096000]⟩ : Shape).Idx → EReal :=
  shapeCast S8x4096000 (m ((c.tc : Thread nD τ).loc main_arg1)) shapeCasts_S8x1x160x160x160_S8x4096000

/-- What the region finds in its two input arrays: the host's re-laying of the arguments. -/
theorem P_eq (c : Dev nD) : Accum.P m c = p m c := by
  unfold Accum.P
  show StableHlo.after hostOps0 (fun b => m (c, b)) (Proc.devRef .tc main_v0) = _
  after_results
  rfl
theorem Q_eq (c : Dev nD) : Accum.Q m c = q m c := by
  unfold Accum.Q
  show StableHlo.after hostOps0 (fun b => m (c, b)) (Proc.devRef .tc main_v1) = _
  after_results
  rfl

/-- The two sweeps' blocks added from 0. -/
abbrev table (A : FVec Ideal S2x8x3 .f32) : FVec Ideal S8x3 .f32 :=
  Host.reduceAdd (F := Ideal) A (constant (F := Ideal) S_ .f32 0x00000000#32) reducesTo_S2x8x3_S8x3_d0 h_S_

/-- The table's three columns as vectors. -/
def col0 (A : FVec Ideal S2x8x3 .f32) : FVec Ideal S8 .f32 :=
  shapeCast S8 (extractStridedSlice S8x1 ![0, 0] (table A) slices_S8x3_S8x1_0_0) shapeCasts_S8x1_S8
def col1 (A : FVec Ideal S2x8x3 .f32) : FVec Ideal S8 .f32 :=
  shapeCast S8 (extractStridedSlice S8x1 ![0, 1] (table A) slices_S8x3_S8x1_0_1) shapeCasts_S8x1_S8
def col2 (A : FVec Ideal S2x8x3 .f32) : FVec Ideal S8 .f32 :=
  shapeCast S8 (extractStridedSlice S8x1 ![0, 2] (table A) slices_S8x3_S8x1_0_2) shapeCasts_S8x1_S8

/-- Entry `(b, k)` of the table: the initial value plus the two blocks' entries. -/
theorem table_apply (A : FVec Ideal S2x8x3 .f32) (b : Fin 8) (k : Fin 3) :
    table A (ix2 b k) = Ideal.ofBits .f32 0x00000000#32 + (A (ix3 (0 : Fin 2) b k) + A (ix3 (1 : Fin 2) b k)) := by
  show Ideal.hostReduceAdd reducesTo_S2x8x3_S8x3_d0 A _ (ix2 b k) = _
  rw [Ideal.hostReduceAdd_single reducesTo_S2x8x3_S8x3_d0 (by decide)]
  refine congrArg (Ideal.ofBits .f32 0x00000000#32 + ·) ?_
  refine (Fin.sum_univ_two _).trans ?_
  refine congrArg₂ (· + ·) (congrArg A ?_) (congrArg A ?_)
  · exact funext fun a => match a with | ⟨0, _⟩ => rfl | ⟨1, _⟩ => rfl | ⟨2, _⟩ => rfl
  · exact funext fun a => match a with | ⟨0, _⟩ => rfl | ⟨1, _⟩ => rfl | ⟨2, _⟩ => rfl

/-- The output array's two blocks of a row and column add up to the whole row's sum. -/
theorem blocks_sum (c : Dev nD) (b : Fin 8) (k : Fin 3) :
    Accum.outArr m c (ix3 (0 : Fin 2) b k) + Accum.outArr m c (ix3 (1 : Fin 2) b k)
      = rowSum k (Accum.P m c) (Accum.Q m c) b := by
  rw [rowSum_eq_chunks, Finset.range_eq_Ico]
  show ∑ s ∈ Ico (16 * 0) (16 * 0 + 16), chunk k (Accum.P m c) (Accum.Q m c) b s
      + ∑ s ∈ Ico (16 * 1) (16 * 1 + 16), chunk k (Accum.P m c) (Accum.Q m c) b s = _
  exact Finset.sum_Ico_consecutive _ (by omega) (by omega)

/-- Each column of the table of the output array is the specification's column sum. -/
theorem col0_eq (c : Dev nD) : col0 (Accum.outArr m c) = colSum 0 (Accum.P m c) (Accum.Q m c) := by
  funext i
  obtain ⟨b, rfl⟩ : ∃ b : Fin 8, i = ix1 b := ⟨i 0, eq_ix1 i⟩
  unfold col0 colSum
  refine (Cert.LibColumn.shapeCast_a1_a_apply _ shapeCasts_S8x1_S8 b).trans ?_
  refine (extractStridedSlice_apply _ _ slices_S8x3_S8x1_0_0 _ (ix2 b (0 : Fin 3))
    (fun a => match a with | ⟨0, _⟩ => (Nat.zero_add _).symm | ⟨1, _⟩ => rfl)).trans ?_
  rw [table_apply, blocks_sum]
theorem col1_eq (c : Dev nD) : col1 (Accum.outArr m c) = colSum 1 (Accum.P m c) (Accum.Q m c) := by
  funext i
  obtain ⟨b, rfl⟩ : ∃ b : Fin 8, i = ix1 b := ⟨i 0, eq_ix1 i⟩
  unfold col1 colSum
  refine (Cert.LibColumn.shapeCast_a1_a_apply _ shapeCasts_S8x1_S8 b).trans ?_
  refine (extractStridedSlice_apply _ _ slices_S8x3_S8x1_0_1 _ (ix2 b (1 : Fin 3))
    (fun a => match a with | ⟨0, _⟩ => (Nat.zero_add _).symm | ⟨1, _⟩ => rfl)).trans ?_
  rw [table_apply, blocks_sum]
theorem col2_eq (c : Dev nD) : col2 (Accum.outArr m c) = colSum 2 (Accum.P m c) (Accum.Q m c) := by
  funext i
  obtain ⟨b, rfl⟩ : ∃ b : Fin 8, i = ix1 b := ⟨i 0, eq_ix1 i⟩
  unfold col2 colSum
  refine (Cert.LibColumn.shapeCast_a1_a_apply _ shapeCasts_S8x1_S8 b).trans ?_
  refine (extractStridedSlice_apply _ _ slices_S8x3_S8x1_0_2 _ (ix2 b (2 : Fin 3))
    (fun a => match a with | ⟨0, _⟩ => (Nat.zero_add _).symm | ⟨1, _⟩ => rfl)).trans ?_
  rw [table_apply, blocks_sum]

/-- THE KERNEL'S VALUE: the tail of the specification's three column sums of the re-laid arguments. -/
def result (c : Dev nD) : Buf (Elt Ideal) ((c.tc : Thread nD τ).loc main_v23) :=
  tail bcast_S_S8 reducesTo_S8_S_d0 h_S_ (colSum 0 (p m c) (q m c)) (colSum 1 (p m c) (q m c)) (colSum 2 (p m c) (q m c))

set_option maxHeartbeats 2000000 in
/-- What the operations after the region leave in the result buffer. -/
theorem tail_value (c : Dev nD) :
    Pipeline.afterTail₀ cfgs (dats m) 0 (V0 m) [hostOps1, hostOps1_1, hostOps1_2] c main_v23 = result m c := by
  have hA : Pipeline.withArrays (cfgs 0).spec c (V0 m c) (fun w => (dats m 0 c).arrAt w (cfgs 0).N) (Proc.devRef .tc main_v2)
      = Accum.outArr m c :=
    (Pipeline.withArrays_arr spec0 launch0.win.arr_inj c _ _ 2).trans (Accum.final m c)
  have hT : tail bcast_S_S8 reducesTo_S8_S_d0 h_S_ (col0 (Accum.outArr m c)) (col1 (Accum.outArr m c)) (col2 (Accum.outArr m c))
      = result m c := by
    unfold result
    rw [col0_eq, col1_eq, col2_eq, P_eq, Q_eq]
  refine Eq.trans ?_ hT
  unfold Pipeline.afterTail₀
  simp only [hostOps1, hostOps1_1, hostOps1_2, List.flatten_cons, List.flatten_nil, List.append_nil, List.cons_append, List.nil_append]
  after_results_simp
  rw [hA]
  rfl

/-- THE RUN, READ: the result buffer at the kernel's value, the arguments unchanged. -/
theorem run : θ_run defs (onTc (τ := τ) (main (F := Ideal))) ⟨m, fun _ => 0, ρ⟩ fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v23 (Pipeline.mem_restRefs_of main_v23 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference computes the specification.

  Its program subtracts the two 8 × 4096000 arrays, takes the square, the absolute value and the Huber
  term of the difference position by position, sums each along the rows from 0, and then applies the
  tail (means, choice, mean of the eight).  Each row reduction at row `b` is the initial value plus the
  sum over the 4096000 columns, which is `colSum k`; the only algebra is in the Huber term, where the
  program multiplies `(½ · e) · e` and the specification `½ · (e · e)`: multiplication of extended reals
  is associative.
-/
import proofs.«124057_j38577396253398_2_alg».proof.Proof.Gen.ReferenceIdeal.Read
import proofs.«124057_j38577396253398_2_alg».proof.Proof.Spec
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.Spec

variable (x0 x1 : (⟨S8x1x160x160x160, .f32⟩ : BufTy).Contents (Elt Ideal))

/-- The two arguments re-laid as 8 × 4096000. -/
abbrev p : (⟨2, ![8, 4096000]⟩ : Shape).Idx → EReal := val_main_v0 (F := Ideal) x0
abbrev q : (⟨2, ![8, 4096000]⟩ : Shape).Idx → EReal := val_main_v1 (F := Ideal) x1

/-- The column a row reduction visits: row `i`, column `x`. -/
theorem col_idx (b : Fin 8) (x : Fin 4096000) :
    (fun a => match a with | ⟨0, _⟩ => ⟨((ix1 b : S8.Idx) 0).val, ((ix1 b : S8.Idx) 0).isLt⟩ | ⟨1, _⟩ => ⟨x.val, x.isLt⟩ : S8x4096000.Idx)
      = ix2 b x :=
  funext fun a => match a with | ⟨0, _⟩ => rfl | ⟨1, _⟩ => rfl

/-- The squared error at a position is the specification's. -/
theorem sq_at (j : S8x4096000.Idx) : val_main_v4 (F := Ideal) x0 x1 j = term 0 (p x0 j) (q x1 j) := rfl

/-- The absolute error at a position is the specification's. -/
theorem ab_at (j : S8x4096000.Idx) : val_main_v3 (F := Ideal) x0 x1 j = term 1 (p x0 j) (q x1 j) := rfl

/-- The Huber term at a position is the specification's, by associativity of the product. -/
theorem hub_at (j : S8x4096000.Idx) : val_main_v20 (F := Ideal) x0 x1 j = term 2 (p x0 j) (q x1 j) := by
  show Scalar.select (Ideal.cmp .ole (abT (p x0 j) (q x1 j)) (Ideal.ofBits .f32 0x40A00000#32))
      (Ideal.ofBits .f32 0x3F000000#32 * (p x0 j - q x1 j) * (p x0 j - q x1 j))
      (Ideal.ofBits .f32 0x40A00000#32 * (abT (p x0 j) (q x1 j) - Ideal.ofBits .f32 0x40200000#32))
    = hubT (p x0 j) (q x1 j)
  unfold hubT sqT
  rw [mul_assoc]

/-- A row sum over the columns, as the sum over the naturals below 4096000. -/
theorem row_sum (g : S8x4096000.Idx → EReal) (k : Fin 3) (b : Fin 8)
    (hg : ∀ j, g j = term k (p x0 j) (q x1 j)) :
    ∑ x : Fin 4096000, g (ix2 b x) = rowSum k (p x0) (q x1) b := by
  unfold rowSum
  exact Cert.TiledSum.sum_fin_eq_range 4096000 _ _ fun x => by
    rw [rd_lt _ _ _ x.isLt, rd_lt _ _ _ x.isLt]
    exact hg (ix2 b x)

/-- The three row reductions are the specification's column sums. -/
theorem sq_col : val_main_v5 (F := Ideal) x0 x1 = colSum 0 (p x0) (q x1) := by
  funext i
  obtain ⟨b, rfl⟩ : ∃ b : Fin 8, i = ix1 b := ⟨i 0, eq_ix1 i⟩
  rw [val_main_v5_apply]
  unfold colSum
  refine congrArg (Ideal.ofBits .f32 0x00000000#32 + ·) ?_
  refine (Finset.sum_congr rfl fun x _ => ?_).trans (row_sum x0 x1 (val_main_v4 (F := Ideal) x0 x1) 0 b (sq_at x0 x1))
  exact congrArg (val_main_v4 (F := Ideal) x0 x1) (col_idx b x)

theorem ab_col : val_main_v8 (F := Ideal) x0 x1 = colSum 1 (p x0) (q x1) := by
  funext i
  obtain ⟨b, rfl⟩ : ∃ b : Fin 8, i = ix1 b := ⟨i 0, eq_ix1 i⟩
  rw [val_main_v8_apply]
  unfold colSum
  refine congrArg (Ideal.ofBits .f32 0x00000000#32 + ·) ?_
  refine (Finset.sum_congr rfl fun x _ => ?_).trans (row_sum x0 x1 (val_main_v3 (F := Ideal) x0 x1) 1 b (ab_at x0 x1))
  exact congrArg (val_main_v3 (F := Ideal) x0 x1) (col_idx b x)

theorem hub_col : val_main_v21 (F := Ideal) x0 x1 = colSum 2 (p x0) (q x1) := by
  funext i
  obtain ⟨b, rfl⟩ : ∃ b : Fin 8, i = ix1 b := ⟨i 0, eq_ix1 i⟩
  rw [val_main_v21_apply]
  unfold colSum
  refine congrArg (Ideal.ofBits .f32 0x00000000#32 + ·) ?_
  refine (Finset.sum_congr rfl fun x _ => ?_).trans (row_sum x0 x1 (val_main_v20 (F := Ideal) x0 x1) 2 b (hub_at x0 x1))
  exact congrArg (val_main_v20 (F := Ideal) x0 x1) (col_idx b x)

/-- The rest of the program is the tail applied to the three reductions. -/
theorem stage_eq_tail : val_main_v31 (F := Ideal) x0 x1
    = tail bcast_S_S8 reducesTo_S8_S_d0 h_S_ (val_main_v5 (F := Ideal) x0 x1) (val_main_v8 (F := Ideal) x0 x1)
        (val_main_v21 (F := Ideal) x0 x1) := by
  unfold val_main_v31 val_main_v30 val_main_v29 val_main_v28 val_main_v27 val_main_v26 val_main_v25 val_main_v23
    val_main_v10 val_main_v7 val_main_v24 val_main_v22 val_main_v9 val_main_v6 val_main_cst_11 val_main_cst_10
    val_main_cst_9 val_main_cst_8 val_main_cst_2 val_main_cst_0 tail
  rfl

/-- THE REFERENCE'S RESULT: the tail of the specification's three column sums of the re-laid arguments. -/
theorem result_eq : val_main_v31 (F := Ideal) x0 x1
    = tail bcast_S_S8 reducesTo_S8_S_d0 h_S_ (colSum 0 (p x0) (q x1)) (colSum 1 (p x0) (q x1)) (colSum 2 (p x0) (q x1)) := by
  rw [stage_eq_tail, sq_col, ab_col, hub_col]

end Cert.ReferenceIdeal.RefValue

end
-- ==== Proof.lean ====
/-
  A loss over two 8 × 1 × 160 × 160 × 160 arrays, computed by a tiled reduction and by a plain one.

  Both programs view the arguments as 8 × 4096000 arrays `p`, `q` and, for each of the 8 rows, sum over the row
  the squared error `(p − q)²`, the absolute error `|p − q|` and the Huber term of `p − q` (δ = 5); divide the three
  sums by 4096000; keep the mean squared error of a row if it is at most 1 or below the square of the mean absolute
  error, the mean Huber term otherwise; and average the eight kept values (Proof/Spec.lean: `colSum`, `tail`).

  The reference sums each row in one reduction (Proof/RefValue.lean).  The kernel walks a 2 × 16 grid: sweep `s` of
  16 steps handles columns `2048000·s … 2048000·s + 2047999` in chunks of 128000, adding each chunk's three row sums to
  an 8 × 3 table that it resets at the sweep's first step and copies to block `s` of a 2 × 8 × 3 output at the last
  (Proof/Pieces.lean, Proof/PayloadIdx.lean, Proof/Accum.lean); the host then adds the two blocks and applies the
  same tail (Proof/KernelTail.lean).  So the kernel's row sum is the sum over 32 chunks of 128000 columns and the
  reference's the sum over 4096000 columns: equal because addition of extended reals is commutative and associative
  (Proof/TiledSum.lean), with no appeal to finiteness.  The one other difference is the grouping `½ · (e · e)` against
  `(½ · e) · e` in the Huber term: multiplication of extended reals is associative.

  No operation of the kernel was rewritten in its idealization: the idealized kernel is the kernel's own text read
  over the extended reals.
-/
import proofs.«124057_j38577396253398_2_alg».proof.Defs
import proofs.«124057_j38577396253398_2_alg».proof.Proof.Gen.Kernel
import proofs.«124057_j38577396253398_2_alg».proof.Proof.Gen.Kernel.Skeleton
import proofs.«124057_j38577396253398_2_alg».proof.Proof.Gen.Kernel.Launch
import proofs.«124057_j38577396253398_2_alg».proof.Proof.Gen.Kernel.Points
import proofs.«124057_j38577396253398_2_alg».proof.Proof.Gen.Kernel.Frame
import proofs.«124057_j38577396253398_2_alg».proof.Proof.Gen.KernelIdeal
import proofs.«124057_j38577396253398_2_alg».proof.Proof.Gen.KernelIdeal.Skeleton
import proofs.«124057_j38577396253398_2_alg».proof.Proof.Gen.KernelIdeal.Launch
import proofs.«124057_j38577396253398_2_alg».proof.Proof.Gen.KernelIdeal.Points
import proofs.«124057_j38577396253398_2_alg».proof.Proof.Gen.KernelIdeal.Frame
import proofs.«124057_j38577396253398_2_alg».proof.Proof.Gen.ReferenceIdeal
import proofs.«124057_j38577396253398_2_alg».proof.Proof.Gen.ReferenceIdeal.Run
import proofs.«124057_j38577396253398_2_alg».proof.Proof.Gen.ReferenceIdeal.Read
import proofs.«124057_j38577396253398_2_alg».proof.Proof.Gen.Pre_finite_inputs
import proofs.«124057_j38577396253398_2_alg».proof.Proof.KernelTail
import proofs.«124057_j38577396253398_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: it runs, and its run leaves the arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- Over the extended reals both programs end at the tail of the three column sums of the re-laid arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v31_eq _ _).trans ?_
  rw [Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
